-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512x512 : Shape := ⟨2, ![512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S64x512x512 .f32) (main_arg1 : FVec F S64x512x512 .f32) (main_arg2 : FVec F S512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S64x512x512 : Shape := ⟨3, ![64, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S512x512, .f32⟩
  | .hbm, ⟨3, _⟩ => ⟨S64x512x512, .f32⟩
  | .hbm, ⟨4, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  dot_S512x512_S512x512_S512x512_1_1_0_0_n_n_wf : DotDims.WF S512x512 S512x512 S512x512 [1] [1] [0] [0] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .f32 = 32 ∨ (Rect.block (s := S64x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S512x512 : Shape := ⟨2, ![512, 512]⟩
abbrev S_ : Shape := ⟨0, ![]⟩
abbrev S64x512 : Shape := ⟨2, ![64, 512]⟩
abbrev S64x512x1 : Shape := ⟨3, ![64, 512, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S512x512, .f32⟩
  | .hbm, ⟨3, _⟩ => ⟨S64x512x512, .f32⟩
  | .hbm, ⟨4, _⟩ => ⟨S64x512x512, .f32⟩
  | .hbm, ⟨5, _⟩ => ⟨S64x512x512, .f32⟩
  | .hbm, ⟨6, _⟩ => ⟨S64x512x512, .f32⟩
  | .hbm, ⟨7, _⟩ => ⟨S64x512x512, .f32⟩
  | .hbm, ⟨8, _⟩ => ⟨S_, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512x1, .f32⟩
  | .hbm, ⟨14, _⟩ => ⟨S64x512x512, .f32⟩
  | .hbm, ⟨15, _⟩ => ⟨S64x512x512, .f32⟩
  | .hbm, ⟨16, _⟩ => ⟨S64x512x512, .f32⟩
  | .hbm, ⟨17, _⟩ => ⟨S_, .f32⟩
  | .hbm, ⟨18, _⟩ => ⟨S64x512, .f32⟩
  | .hbm, ⟨19, _⟩ => ⟨S64x512x1, .f32⟩
  | .hbm, ⟨20, _⟩ => ⟨S64x512x512, .f32⟩
  | .hbm, ⟨21, _⟩ => ⟨S64x512x512, .f32⟩
  | .hbm, ⟨22, _⟩ => ⟨S64x512x512, .f32⟩
  | .hbm, ⟨23, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  dot_S64x512x512_S512x512_S64x512x512_2_0_01_1_n_n_wf : DotDims.WF S64x512x512 S512x512 S64x512x512 [2] [0] [0, 1] [1] [] []
  dot_S64x512x512_S64x512x512_S64x512x512_2_2_1_1_0_0_wf : DotDims.WF S64x512x512 S64x512x512 S64x512x512 [2] [2] [1] [1] [0] [0]
  dot_S64x512x512_S64x512x512_S64x512x512_2_1_1_2_0_0_wf : DotDims.WF S64x512x512 S64x512x512 S64x512x512 [2] [1] [1] [2] [0] [0]
  dot_S64x512x512_S64x512x512_S64x512x512_1_1_2_2_0_0_wf : DotDims.WF S64x512x512 S64x512x512 S64x512x512 [1] [1] [2] [2] [0] [0]

variable [Facts₀]

def dot_S64x512x512_S512x512_S64x512x512_2_0_01_1_n_n : DotDims S64x512x512 S512x512 S64x512x512 where
  lhsContracting := [2]
  rhsContracting := [0]
  lhsNonContracting := [0, 1]
  rhsNonContracting := [1]
  lhsBatch := []
  rhsBatch := []
  wf := dot_S64x512x512_S512x512_S64x512x512_2_0_01_1_n_n_wf
def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf
def dot_S64x512x512_S64x512x512_S64x512x512_1_1_2_2_0_0 : DotDims S64x512x512 S64x512x512 S64x512x512 where
  lhsContracting := [1]
  rhsContracting := [1]
  lhsNonContracting := [2]
  rhsNonContracting := [2]
  lhsBatch := [0]
  rhsBatch := [0]
  wf := dot_S64x512x512_S64x512x512_S64x512x512_1_1_2_2_0_0_wf

class Facts : Prop extends Facts₀ where

variable [Facts]
-- ==== Proof.Spec.lean ====
/-
  The mathematics both programs compute, stated once with no program in sight.

  Per batch element the inputs are three 512×512 matrices of extended reals: the premises `P`, the hypotheses `H` and the
  projection `W`. Both sides form  Fp = tanh(P·W),  Fh = tanh(H·W),  the scores  E = Fp·Fhᵀ,  the row softmax
  A = softmax(E) (each row shifted by its maximum, exponentiated, divided by the row's sum), and return
  betas = A·H  and  alphas = Aᵀ·P.  Everything is written entry by entry over `Fin 512`, with sums as `Finset` sums
  (commutative and associative on the extended reals, so no order of summation is recorded) and the row maximum as a
  `Finset.fold` of `max` from −∞. No finiteness is needed: the two programs apply the same operations to the same
  entries, and only the bookkeeping of indices differs.
-/
import Idealize.ShloMosaic.PureOps.Ideal
import Idealize.ShloMosaic.Lib.ValueIdx

noncomputable section

open scoped BigOperators

namespace Cert.Align

open Idealize.ShloMosaic Idealize.ShloMosaic.ValueIdx

/-- A 512×512 matrix of extended reals, entry by entry. -/
abbrev Mat : Type := Fin 512 → Fin 512 → EReal

/-- −∞, spelt as the f32 word both programs write for it (never evaluated: the same word stands on both sides). -/
abbrev negInf : EReal := Ideal.ofBits .f32 0xFF800000#32

/-- The product `A · B`. -/
def mulRight (A B : Mat) : Mat := fun i j => ∑ k : Fin 512, A i k * B k j

/-- The product `A · Bᵀ`: row `i` of `A` against row `j` of `B`. -/
def mulTransR (A B : Mat) : Mat := fun i j => ∑ k : Fin 512, A i k * B j k

/-- The product `Aᵀ · B`: column `i` of `A` against column `j` of `B`. -/
def mulTransL (A B : Mat) : Mat := fun i j => ∑ k : Fin 512, A k i * B k j

/-- The projection `tanh (X · W)`. -/
def proj (X W : Mat) : Mat := fun i j => Ideal.tanh (mulRight X W i j)

/-- The maximum of row `i`, taken from −∞ (and once more against −∞, as both programs do). -/
def rowMax (E : Mat) (i : Fin 512) : EReal := max negInf ((Finset.univ : Finset (Fin 512)).fold max negInf (E i))

/-- Each entry shifted by its row's maximum and exponentiated. -/
def shiftExp (E : Mat) : Mat := fun i j => Ideal.exp (E i j - rowMax E i)

/-- The row softmax: the shifted exponentials divided by their row's sum. -/
def softmax (E : Mat) : Mat := fun i j => Ideal.div (shiftExp E i j) (∑ k : Fin 512, shiftExp E i k)

/-- The attention weights of one batch element. -/
def attn (P H W : Mat) : Mat := softmax (mulTransR (proj P W) (proj H W))

/-- `betas = A · H`. -/
def betas (P H W : Mat) : Mat := mulRight (attn P H W) H

/-- `alphas = Aᵀ · P`. -/
def alphas (P H W : Mat) : Mat := mulTransL (attn P H W) P

/-! ## The whole arrays -/

/-- A [64, 512, 512] array of extended reals. -/
abbrev Arr3 : Type := (⟨3, ![64, 512, 512]⟩ : Shape).Idx → EReal
/-- A [512, 512] array of extended reals. -/
abbrev Arr2 : Type := (⟨2, ![512, 512]⟩ : Shape).Idx → EReal

/-- Batch element `b` of a [64, 512, 512] array, as a matrix. -/
def slab (X : Arr3) (b : Fin 64) : Mat := fun i j => X (ix3 b i j)

/-- A [512, 512] array as a matrix. -/
def mat (W : Arr2) : Mat := fun i j => W (ix2 i j)

/-- The first result: at `(b, p, d)` entry `(p, d)` of `betas` of batch element `b`. -/
def betasArr (P H : Arr3) (W : Arr2) : Arr3 := fun i => betas (slab P (i 0)) (slab H (i 0)) (mat W) (i 1) (i 2)

/-- The second result: at `(b, h, d)` entry `(h, d)` of `alphas` of batch element `b`. -/
def alphasArr (P H : Arr3) (W : Arr2) : Arr3 := fun i => alphas (slab P (i 0)) (slab H (i 0)) (mat W) (i 1) (i 2)

theorem betasArr_apply (P H : Arr3) (W : Arr2) (b : Fin 64) (p d : Fin 512) :
    betasArr P H W (ix3 b p d) = betas (slab P b) (slab H b) (mat W) p d := rfl

theorem alphasArr_apply (P H : Arr3) (W : Arr2) (b : Fin 64) (h d : Fin 512) :
    alphasArr P H W (ix3 b h d) = alphas (slab P b) (slab H b) (mat W) h d := rfl

end Cert.Align

end
-- ==== Proof.RefSide.lean ====
/-
  The reference, one operation at a time, read batch element by batch element as operations on 512×512 matrices.

  A `dot_general` with the batch axis in front is, on batch element `b`, a matrix product of the operands' slabs at `b`
  (which product depends on the contracted axes); `tanh`, the subtraction, `exp` and the quotient act entry by entry;
  the maximum and the sum over the last axis give one value per row, broadcast back along that row.  So slab `b` of each
  stage is the corresponding stage of the specification applied to slab `b` of the arguments.

-/
import proofs.«158958_j29532195127900_1_alg».proof.Proof.Gen.ReferenceIdeal.Read
import proofs.«158958_j29532195127900_1_alg».proof.Proof.Spec
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx Cert.Align

/-- The [64, 512, 512] arrays of the reference. -/
abbrev A3 : Type := (⟨S64x512x512, .f32⟩ : BufTy).Contents (Elt Ideal)
/-- Its [512, 512] array. -/
abbrev A2 : Type := (⟨S512x512, .f32⟩ : BufTy).Contents (Elt Ideal)

theorem slab_apply (X : A3) (b : Fin 64) (i j : Fin 512) : slab X b i j = X (ix3 b i j) := rfl

variable (x0 x1 : A3) (x2 : A2)

/-! ## The two projections -/

/-- `X · W` on each batch element: the left operand's last axis against the weight's first. -/
theorem slab_v0 (b : Fin 64) : slab (val_main_v0 (F := Ideal) x0 x2) b = mulRight (slab x0 b) (mat x2) := by
  funext i j
  rw [slab_apply, val_main_v0_apply]
  show _ = ∑ k : Fin 512, x0 (ix3 b i k) * x2 (ix2 k j)
  refine Finset.sum_congr rfl fun k _ => ?_
  have el : lidx_main_v0 (ix3 b i j) k = ix3 b i k := funext fun a => by match a with | ⟨0, _⟩ => rfl | ⟨1, _⟩ => rfl | ⟨2, _⟩ => rfl
  have er : ridx_main_v0 (ix3 b i j) k = ix2 k j := funext fun a => by match a with | ⟨0, _⟩ => rfl | ⟨1, _⟩ => rfl
  rw [el, er]

/-- `tanh` entry by entry, on each batch element. -/
theorem tanh_slab (Y : A3) (M : Mat) (b : Fin 64) (h : slab Y b = M) :
    slab (Host.tanh (F := Ideal) (s := S64x512x512) (φ := .f32) Y) b = fun i j => Ideal.tanh (M i j) := by
  subst h; rfl

theorem slab_v1 (b : Fin 64) : slab (val_main_v1 (F := Ideal) x0 x2) b = proj (slab x0 b) (mat x2) :=
  tanh_slab (val_main_v0 (F := Ideal) x0 x2) _ b (slab_v0 x0 x2 b)

/-- The second projection is the same operation on the other argument. -/
theorem slab_v2 (b : Fin 64) : slab (val_main_v2 (F := Ideal) x1 x2) b = mulRight (slab x1 b) (mat x2) := by
  funext i j
  rw [slab_apply, val_main_v2_apply]
  show _ = ∑ k : Fin 512, x1 (ix3 b i k) * x2 (ix2 k j)
  refine Finset.sum_congr rfl fun k _ => ?_
  have el : lidx_main_v2 (ix3 b i j) k = ix3 b i k := funext fun a => by match a with | ⟨0, _⟩ => rfl | ⟨1, _⟩ => rfl | ⟨2, _⟩ => rfl
  have er : ridx_main_v2 (ix3 b i j) k = ix2 k j := funext fun a => by match a with | ⟨0, _⟩ => rfl | ⟨1, _⟩ => rfl
  rw [el, er]

theorem slab_v3 (b : Fin 64) : slab (val_main_v3 (F := Ideal) x1 x2) b = proj (slab x1 b) (mat x2) :=
  tanh_slab (val_main_v2 (F := Ideal) x1 x2) _ b (slab_v2 x1 x2 b)

/-! ## The scores -/

/-- `Fp · Fhᵀ` on each batch element: both operands' last axes contracted. -/
theorem slab_v4 (b : Fin 64) :
    slab (val_main_v4 (F := Ideal) x0 x1 x2) b = mulTransR (proj (slab x0 b) (mat x2)) (proj (slab x1 b) (mat x2)) := by
  rw [← slab_v1, ← slab_v3]
  funext i j
  rw [slab_apply, val_main_v4_apply]
  generalize val_main_v1 (F := Ideal) x0 x2 = Y
  generalize val_main_v3 (F := Ideal) x1 x2 = Z
  show _ = ∑ k : Fin 512, Y (ix3 b i k) * Z (ix3 b j k)
  refine Finset.sum_congr rfl fun k _ => ?_
  have el : lidx_main_v4 (ix3 b i j) k = ix3 b i k := funext fun a => by match a with | ⟨0, _⟩ => rfl | ⟨1, _⟩ => rfl | ⟨2, _⟩ => rfl
  have er : ridx_main_v4 (ix3 b i j) k = ix3 b j k := funext fun a => by match a with | ⟨0, _⟩ => rfl | ⟨1, _⟩ => rfl | ⟨2, _⟩ => rfl
  rw [el, er]

/-! ## The softmax over the last axis -/

/-- The `Reduces` witness of the reductions over the last axis, which names the index with a coordinate put back. -/
theorem reduces_last : S64x512x512.Reduces [2] S64x512 := by decide

theorem lift_last (b : Fin 64) (i k : Fin 512) : reduces_last.lift (ix2 b i) k = ix3 b i k :=
  funext fun a => Fin.ext (by match a with | ⟨0, _⟩ => rfl | ⟨1, _⟩ => rfl | ⟨2, _⟩ => rfl)

/-- The reduction by `max` from −∞ over the last axis is, at `(b, i)`, the fold of `max` over row `i` of slab `b`. -/
theorem hostRowMax (E : A3) (b : Fin 64) (i : Fin 512) :
    Host.reduce (α := EReal) (s := S64x512x512) (t := S64x512) (u := S_) (FloatOps.maximumf (F := Ideal) (φ := .f32)) E
        (val_main_cst (F := Ideal)) reducesTo_S64x512x512_S64x512_d2 h_S_ (ix2 b i)
      = (Finset.univ : Finset (Fin 512)).fold max negInf (slab E b i) := by
  have key := Host.reduce_eq_fold_single (α := EReal) (s := S64x512x512) (t := S64x512) (a := 2) (u := S_)
    (FloatOps.maximumf (F := Ideal) (φ := .f32)) E (val_main_cst (F := Ideal))
    reducesTo_S64x512x512_S64x512_d2 reduces_last h_S_ (ix2 b i)
  refine key.trans ?_
  show (Finset.univ : Finset (Fin 512)).fold max negInf (E ∘ reduces_last.lift (ix2 b i)) = _
  exact congrArg (fun f : Fin 512 → EReal => (Finset.univ : Finset (Fin 512)).fold max negInf f)
    (funext fun k => congrArg E (lift_last b i k))

/-- The row maxima: that reduction, then once more against −∞. -/
theorem v7_apply (b : Fin 64) (i : Fin 512) :
    val_main_v7 (F := Ideal) x0 x1 x2 (ix2 b i) = rowMax (slab (val_main_v4 (F := Ideal) x0 x1 x2) b) i := by
  rw [val_main_v7_apply, val_main_v6_apply, val_main_cst_0_apply]
  unfold val_main_v5
  generalize val_main_v4 (F := Ideal) x0 x1 x2 = E
  exact congrArg (max negInf) (hostRowMax E b i)

/-- … broadcast back along the row. -/
theorem v9_apply (b : Fin 64) (i j : Fin 512) :
    val_main_v9 (F := Ideal) x0 x1 x2 (ix3 b i j) = rowMax (slab (val_main_v4 (F := Ideal) x0 x1 x2) b) i := by
  have e : idx_main_v8 (idx_main_v9 (ix3 b i j)) = ix2 b i := funext fun a => by match a with | ⟨0, _⟩ => rfl | ⟨1, _⟩ => rfl
  rw [val_main_v9_apply, val_main_v8_apply, e, v7_apply]

/-- The shifted exponentials. -/
theorem slab_v11 (b : Fin 64) :
    slab (val_main_v11 (F := Ideal) x0 x1 x2) b = shiftExp (slab (val_main_v4 (F := Ideal) x0 x1 x2) b) := by
  funext i j
  rw [slab_apply, val_main_v11_apply, val_main_v10_apply, v9_apply]
  generalize val_main_v4 (F := Ideal) x0 x1 x2 = E
  rfl

/-- The row sums: the initial value is zero, and the reduction is the sum over the last coordinate. -/
theorem v12_apply (b : Fin 64) (i : Fin 512) :
    val_main_v12 (F := Ideal) x0 x1 x2 (ix2 b i) = ∑ k : Fin 512, slab (val_main_v11 (F := Ideal) x0 x1 x2) b i k := by
  rw [val_main_v12_apply]
  generalize val_main_v11 (F := Ideal) x0 x1 x2 = Y
  show Ideal.ofBits .f32 0x00000000#32 + _ = _
  rw [Ideal.ofBits_zero_f32, zero_add]
  refine Finset.sum_congr rfl fun k _ => ?_
  exact congrArg Y (funext fun a => by match a with | ⟨0, _⟩ => rfl | ⟨1, _⟩ => rfl | ⟨2, _⟩ => rfl)

/-- … broadcast back along the row. -/
theorem v14_apply (b : Fin 64) (i j : Fin 512) :
    val_main_v14 (F := Ideal) x0 x1 x2 (ix3 b i j) = ∑ k : Fin 512, slab (val_main_v11 (F := Ideal) x0 x1 x2) b i k := by
  have e : idx_main_v13 (idx_main_v14 (ix3 b i j)) = ix2 b i := funext fun a => by match a with | ⟨0, _⟩ => rfl | ⟨1, _⟩ => rfl
  rw [val_main_v14_apply, val_main_v13_apply, e, v12_apply]

/-- The attention weights of each batch element. -/
theorem slab_v15 (b : Fin 64) :
    slab (val_main_v15 (F := Ideal) x0 x1 x2) b = attn (slab x0 b) (slab x1 b) (mat x2) := by
  unfold attn
  rw [← slab_v4]
  funext i j
  rw [slab_apply, val_main_v15_apply, v14_apply, ← slab_apply (val_main_v11 (F := Ideal) x0 x1 x2) b i j, slab_v11]
  generalize slab (val_main_v4 (F := Ideal) x0 x1 x2) b = M
  rfl

/-! ## The two results -/

/-- `A · H` on each batch element: the weights' last axis against the hypotheses' middle axis. -/
theorem slab_v16 (b : Fin 64) :
    slab (val_main_v16 (F := Ideal) x0 x1 x2) b = betas (slab x0 b) (slab x1 b) (mat x2) := by
  unfold betas
  rw [← slab_v15]
  funext i j
  rw [slab_apply, val_main_v16_apply]
  generalize val_main_v15 (F := Ideal) x0 x1 x2 = Y
  show _ = ∑ k : Fin 512, Y (ix3 b i k) * x1 (ix3 b k j)
  refine Finset.sum_congr rfl fun k _ => ?_
  have el : lidx_main_v16 (ix3 b i j) k = ix3 b i k := funext fun a => by match a with | ⟨0, _⟩ => rfl | ⟨1, _⟩ => rfl | ⟨2, _⟩ => rfl
  have er : ridx_main_v16 (ix3 b i j) k = ix3 b k j := funext fun a => by match a with | ⟨0, _⟩ => rfl | ⟨1, _⟩ => rfl | ⟨2, _⟩ => rfl
  rw [el, er]

/-- `Aᵀ · P` on each batch element: both operands' middle axes contracted. -/
theorem slab_v17 (b : Fin 64) :
    slab (val_main_v17 (F := Ideal) x0 x1 x2) b = alphas (slab x0 b) (slab x1 b) (mat x2) := by
  unfold alphas
  rw [← slab_v15]
  funext i j
  rw [slab_apply, val_main_v17_apply]
  generalize val_main_v15 (F := Ideal) x0 x1 x2 = Y
  show _ = ∑ k : Fin 512, Y (ix3 b k i) * x0 (ix3 b k j)
  refine Finset.sum_congr rfl fun k _ => ?_
  have el : lidx_main_v17 (ix3 b i j) k = ix3 b k i := funext fun a => by match a with | ⟨0, _⟩ => rfl | ⟨1, _⟩ => rfl | ⟨2, _⟩ => rfl
  have er : ridx_main_v17 (ix3 b i j) k = ix3 b k j := funext fun a => by match a with | ⟨0, _⟩ => rfl | ⟨1, _⟩ => rfl | ⟨2, _⟩ => rfl
  rw [el, er]

/-- The reference's first result is the specification's. -/
theorem v16_eq : val_main_v16 (F := Ideal) x0 x1 x2 = betasArr x0 x1 x2 := by
  funext i
  obtain ⟨b, p, d, rfl⟩ : ∃ (b : Fin 64) (p d : Fin 512), i = ix3 b p d := ⟨i 0, i 1, i 2, eq_ix3 i⟩
  rw [betasArr_apply, ← slab_v16, slab_apply]

/-- The reference's second result is the specification's. -/
theorem v17_eq : val_main_v17 (F := Ideal) x0 x1 x2 = alphasArr x0 x1 x2 := by
  funext i
  obtain ⟨b, p, d, rfl⟩ : ∃ (b : Fin 64) (p d : Fin 512), i = ix3 b p d := ⟨i 0, i 1, i 2, eq_ix3 i⟩
  rw [alphasArr_apply, ← slab_v17, slab_apply]

end Cert.ReferenceIdeal.Hand

end
-- ==== Proof.KernelOps.lean ====
/-
  The kernel body's vector operations, read entry by entry as operations on 512×512 matrices of extended reals.

  A `tpu.matmul` into a zero accumulator is, at entry (i, j), the sum over the one contracted coordinate k of the
  products of the two operands' entries; which entries those are depends on the dimension numbers: the plain product
  takes (i, k) and (k, j), the product contracting both operands' second axes takes (i, k) and (j, k), the product
  contracting both operands' first axes takes (k, i) and (k, j).  The softmax over the second axis is a lane maximum
  kept as a column, broadcast back along the rows and subtracted, an exponential, a lane sum kept as a column, and a
  quotient: at (i, j) it reads row i only.  A change of float format is the identity on the extended reals.
-/
import proofs.«158958_j29532195127900_1_alg».proof.Proof.Gen.KernelIdeal
import proofs.«158958_j29532195127900_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx Cert.Align

variable {φ₁ φ₂ : FTy}

/-! ## The three matrix products

Each is read the same way: the product at an entry is the sum over the contraction index; the contraction index has one
coordinate, so the sum is re-indexed over `Fin 512`; and the operands' indices at an entry and a contraction coordinate are
computed axis by axis from the dimension numbers (the contracted axis carries the coordinate, the other axis the
entry's row or column). -/

section Plain

theorem plain_lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem plain_lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem plain_rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem plain_rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The plain product (left axis 1 against right axis 0) into a zero accumulator is `A · B`. -/
theorem matmul_plain (x : FVec Ideal S512x512 φ₁) (y : FVec Ideal S512x512 φ₂) :
    mat (matmul dot_S512x512_S512x512_S512x512_1_0_0_1_n_n none x y (constant S512x512 .f32 0x00000000#32))
      = mulRight (mat x) (mat y) := by
  funext i j
  show FloatOps.matmul dot_S512x512_S512x512_S512x512_1_0_0_1_n_n none x y (constant S512x512 .f32 0x00000000#32) (ix2 i j)
    = ∑ k : Fin 512, x (ix2 i k) * y (ix2 k j)
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 i j) ((contrEquiv1 dot_S512x512_S512x512_S512x512_1_0_0_1_n_n 512 rfl rfl).symm k) = ix2 i k := funext fun a => Fin.ext (by
    match a with
    | ⟨0, _⟩ => exact plain_lhs_0 _ _
    | ⟨1, _⟩ => exact (plain_lhs_1 _ _).trans hk)
  have er : dot_S512x512_S512x512_S512x512_1_0_0_1_n_n.rhsIdx (ix2 i j) ((contrEquiv1 dot_S512x512_S512x512_S512x512_1_0_0_1_n_n 512 rfl rfl).symm k) = ix2 k j := funext fun a => Fin.ext (by
    match a with
    | ⟨0, _⟩ => exact (plain_rhs_0 _ _).trans hk
    | ⟨1, _⟩ => exact plain_rhs_1 _ _)
  rw [el, er]

end Plain

section TransR

theorem transR_lhs_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem transR_lhs_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem transR_rhs_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q
theorem transR_rhs_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl

/-- The product contracting both operands' second axes, into a zero accumulator, is `A · Bᵀ`. -/
theorem matmul_transR (x : FVec Ideal S512x512 φ₁) (y : FVec Ideal S512x512 φ₂) :
    mat (matmul dot_S512x512_S512x512_S512x512_1_1_0_0_n_n none x y (constant S512x512 .f32 0x00000000#32))
      = mulTransR (mat x) (mat y) := by
  funext i j
  show FloatOps.matmul dot_S512x512_S512x512_S512x512_1_1_0_0_n_n none x y (constant S512x512 .f32 0x00000000#32) (ix2 i j)
    = ∑ k : Fin 512, x (ix2 i k) * y (ix2 j k)
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 i j) ((contrEquiv1 dot_S512x512_S512x512_S512x512_1_1_0_0_n_n 512 rfl rfl).symm k) = ix2 i k := funext fun a => Fin.ext (by
    match a with
    | ⟨0, _⟩ => exact transR_lhs_0 _ _
    | ⟨1, _⟩ => exact (transR_lhs_1 _ _).trans hk)
  have er : dot_S512x512_S512x512_S512x512_1_1_0_0_n_n.rhsIdx (ix2 i j) ((contrEquiv1 dot_S512x512_S512x512_S512x512_1_1_0_0_n_n 512 rfl rfl).symm k) = ix2 j k := funext fun a => Fin.ext (by
    match a with
    | ⟨1, _⟩ => exact (transR_rhs_1 _ _).trans hk
    | ⟨0, _⟩ => exact transR_rhs_0 _ _)
  rw [el, er]

end TransR

section TransL

theorem transL_lhs_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem transL_lhs_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem transL_rhs_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem transL_rhs_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- The product contracting both operands' first axes, into a zero accumulator, is `Aᵀ · B`. -/
theorem matmul_transL (x : FVec Ideal S512x512 φ₁) (y : FVec Ideal S512x512 φ₂) :
    mat (matmul dot_S512x512_S512x512_S512x512_0_0_1_1_n_n none x y (constant S512x512 .f32 0x00000000#32))
      = mulTransL (mat x) (mat y) := by
  funext i j
  show FloatOps.matmul dot_S512x512_S512x512_S512x512_0_0_1_1_n_n none x y (constant S512x512 .f32 0x00000000#32) (ix2 i j)
    = ∑ k : Fin 512, x (ix2 k i) * y (ix2 k j)
  rw [Ideal.matmul_constant_zero_apply, ← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 i j) ((contrEquiv1 dot_S512x512_S512x512_S512x512_0_0_1_1_n_n 512 rfl rfl).symm k) = ix2 k i := funext fun a => Fin.ext (by
    match a with
    | ⟨1, _⟩ => exact transL_lhs_1 _ _
    | ⟨0, _⟩ => exact (transL_lhs_0 _ _).trans hk)
  have er : dot_S512x512_S512x512_S512x512_0_0_1_1_n_n.rhsIdx (ix2 i j) ((contrEquiv1 dot_S512x512_S512x512_S512x512_0_0_1_1_n_n 512 rfl rfl).symm k) = ix2 k j := funext fun a => Fin.ext (by
    match a with
    | ⟨0, _⟩ => exact (transL_rhs_0 _ _).trans hk
    | ⟨1, _⟩ => exact transL_rhs_1 _ _)
  rw [el, er]

end TransL

/-! ## Layout: the unit batch axis, and a column broadcast along the rows -/

/-- A [1, 512, 512] block with its unit axis dropped, as a matrix. -/
def blockMat (v : Vec Ideal S1x512x512 .f32) : Mat := fun i j => v (ix3 (0 : Fin 1) i j)

/-- Dropping the unit axis by a shape cast reads the block's one slab. -/
theorem mat_dropUnit (v : Vec Ideal S1x512x512 .f32) :
    mat (shapeCast S512x512 v shapeCasts_S1x512x512_S512x512) = blockMat v :=
  funext fun i => funext fun j => shapeCast_1ab_ab_apply v shapeCasts_S1x512x512_S512x512 i j

/-- Adding the unit axis back by a shape cast reads the matrix at the two trailing coordinates. -/
theorem addUnit_apply (x : FVec Ideal S512x512 .f32) (u : Fin 1) (i j : Fin 512) :
    shapeCast S1x512x512 x shapeCasts_S512x512_S1x512x512 (ix3 u i j) = mat x i j :=
  shapeCast_ab_1ab_apply x shapeCasts_S512x512_S1x512x512 u i j

/-- One value per row, kept as a [512, 1] column and broadcast back along the rows. -/
def colBroadcast (r : FVec Ideal S512 .f32) : FVec Ideal S512x512 .f32 :=
  broadcastTo S512x512 (shapeCast S512x1 r shapeCasts_S512_S512x1) broadcasts_S512x1_S512x512

/-- … reads, at (i, j), the value of row i. -/
theorem colBroadcast_apply (r : FVec Ideal S512 .f32) (i j : Fin 512) : colBroadcast r (ix2 i j) = r (ix1 i) := by
  unfold colBroadcast
  refine (broadcastTo_apply _ broadcasts_S512x1_S512x512 (ix2 i j) (ix2 i (0 : Fin 1)) fun ax => ?_).trans ?_
  · match ax with
    | ⟨0, _⟩ => show i.val = if (512 : ℕ) = 1 then 0 else i.val; rw [if_neg (by decide)]
    | ⟨1, _⟩ => show (0 : ℕ) = if (1 : ℕ) = 1 then 0 else j.val; rw [if_pos rfl]
  · exact shapeCast_apply r shapeCasts_S512_S512x1 (ix2 i (0 : Fin 1)) (ix1 i) (by
      rw [Shape.rowMajor_val_one, Shape.rowMajor_val_two]
      show i.val = i.val * 1 + 0
      omega)

/-! ## The softmax over the second axis -/

/-- Row `i` of a [512, 512] vector: the index of a lane reduction's result at `i` with coordinate `k` put back on the
    reduced axis is `(i, k)`. -/
theorem lift_row (i k : Fin 512) : reduces_S512x512_S512.lift (ix1 i) k = ix2 i k :=
  funext fun a => Fin.ext (by match a with | ⟨0, _⟩ => rfl | ⟨1, _⟩ => rfl)

/-- The row maxima as the kernel takes them: a lane maximum from −∞, then once more against −∞. -/
def rowMaxVec (e : FVec Ideal S512x512 .f32) : FVec Ideal S512 .f32 :=
  maximumf (broadcast S512 (Scalar.ofBits .f32 0xFF800000#32))
    (multiReduction .maximumf [1] S512 e 0xFF800000#32 reduces_S512x512_S512 (.inl rfl) rfl)

theorem rowMaxVec_apply (e : FVec Ideal S512x512 .f32) (i : Fin 512) : rowMaxVec e (ix1 i) = rowMax (mat e) i := by
  show max (Ideal.ofBits .f32 0xFF800000#32) (multiReduction .maximumf [1] S512 e 0xFF800000#32 reduces_S512x512_S512 (.inl rfl) rfl (ix1 i)) = _
  refine congrArg (max _) ((Ideal.multiReduction_maximumf_single e 0xFF800000#32 reduces_S512x512_S512 (.inl rfl) rfl (ix1 i)).trans ?_)
  show (Finset.univ : Finset (Fin 512)).fold max (Ideal.ofBits .f32 0xFF800000#32) (e ∘ reduces_S512x512_S512.lift (ix1 i)) = _
  exact congrArg (fun f : Fin 512 → EReal => (Finset.univ : Finset (Fin 512)).fold max negInf f)
    (funext fun k => congrArg e (lift_row i k))

/-- The shifted exponentials as the kernel takes them. -/
def shiftExpVec (e : FVec Ideal S512x512 .f32) : FVec Ideal S512x512 .f32 :=
  exp (subf e (colBroadcast (rowMaxVec e)))

theorem shiftExpVec_mat (e : FVec Ideal S512x512 .f32) : mat (shiftExpVec e) = shiftExp (mat e) := by
  funext i j
  show Ideal.exp (e (ix2 i j) - colBroadcast (rowMaxVec e) (ix2 i j)) = Ideal.exp (e (ix2 i j) - rowMax (mat e) i)
  rw [colBroadcast_apply, rowMaxVec_apply]

/-- The row sums of a [512, 512] vector as a lane sum. -/
def rowSumVec (x : FVec Ideal S512x512 .f32) : FVec Ideal S512 .f32 :=
  multiReduction .add [1] S512 x 0x00000000#32 reduces_S512x512_S512 (.inl rfl) rfl

theorem rowSumVec_apply (x : FVec Ideal S512x512 .f32) (i : Fin 512) : rowSumVec x (ix1 i) = ∑ k : Fin 512, mat x i k := by
  refine (Ideal.multiReduction_add_single x 0x00000000#32 reduces_S512x512_S512 (.inl rfl) rfl (ix1 i)).trans ?_
  show ∑ k : Fin 512, x (reduces_S512x512_S512.lift (ix1 i) k) = _
  exact Finset.sum_congr rfl fun k _ => congrArg x (lift_row i k)

/-- The softmax as the kernel takes it. -/
def softmaxVec (e : FVec Ideal S512x512 .f32) : FVec Ideal S512x512 .f32 :=
  divf (shiftExpVec e) (colBroadcast (rowSumVec (shiftExpVec e)))

/-- Entry by entry it is the softmax of the matrix. -/
theorem softmaxVec_mat (e : FVec Ideal S512x512 .f32) : mat (softmaxVec e) = softmax (mat e) := by
  funext i j
  show Ideal.div (mat (shiftExpVec e) i j) (colBroadcast (rowSumVec (shiftExpVec e)) (ix2 i j))
    = Ideal.div (shiftExp (mat e) i j) (∑ k : Fin 512, shiftExp (mat e) i k)
  rw [colBroadcast_apply, rowSumVec_apply, shiftExpVec_mat]

/-- A change of float format is the identity on the extended reals. -/
theorem mat_truncf {φ ψ : FTy} (x : FVec Ideal S512x512 φ) (h : ψ.bits < φ.bits) : mat (truncf ψ x h) = mat x := rfl

theorem mat_tanh (x : FVec Ideal S512x512 .f32) : mat (tanh x) = fun i j => Ideal.tanh (mat x i j) := rfl

end Cert.KernelIdeal.Hand

end
-- ==== Proof.KernelBlock.lean ====
/-
  What one grid point stores into each output block, entry by entry.

  The body's two stored values are compositions of the operations read in the module on the kernel's vector operations:
  the attention weights are the softmax of the scores `tanh(P·W) · tanh(H·W)ᵀ` of the point's premise block `P`, hypothesis
  block `H` and the weights `W`; the first store is `A · H` and the second `Aᵀ · P`, each with the unit batch axis put back.
  The changes of float format on the way into each product are the identity on the extended reals.
-/
import proofs.«158958_j29532195127900_1_alg».proof.Proof.Gen.KernelIdeal.Skeleton
import proofs.«158958_j29532195127900_1_alg».proof.Proof.KernelOps

noncomputable section

open scoped BigOperators

namespace Cert.KernelIdeal.Hand

open Cert.KernelIdeal Cert.KernelIdeal.Gen Idealize.ShloMosaic Idealize.ShloMosaic.ValueIdx Cert.Align

variable (v0 v2 : Vec Ideal S1x512x512 .f32) (v4 : Vec Ideal S512x512 .f32)

/-- The premise block with its unit axis dropped (and its format changed). -/
theorem mat_pay1 : mat (k0_pay1 v0) = blockMat v0 := by
  show mat (truncf .bf16 (shapeCast S512x512 v0 shapeCasts_S1x512x512_S512x512 : FVec Ideal S512x512 .f32) bitsLt_bf16_f32 : FVec Ideal S512x512 .bf16) = _
  rw [mat_truncf, mat_dropUnit]

/-- The hypothesis block with its unit axis dropped (and its format changed). -/
theorem mat_pay2 : mat (k0_pay2 v2) = blockMat v2 := by
  show mat (truncf .bf16 (shapeCast S512x512 v2 shapeCasts_S1x512x512_S512x512 : FVec Ideal S512x512 .f32) bitsLt_bf16_f32 : FVec Ideal S512x512 .bf16) = _
  rw [mat_truncf, mat_dropUnit]

/-- The attention weights as the body composes them: two projections, the scores, the softmax. -/
theorem pay3_eq : k0_pay3 v0 v2 v4 =
    truncf .bf16 (softmaxVec (matmul dot_S512x512_S512x512_S512x512_1_1_0_0_n_n none
      (truncf .bf16 (tanh (matmul dot_S512x512_S512x512_S512x512_1_0_0_1_n_n none (k0_pay1 v0) (truncf .bf16 v4 bitsLt_bf16_f32)
        (constant S512x512 .f32 0x00000000#32))) bitsLt_bf16_f32)
      (truncf .bf16 (tanh (matmul dot_S512x512_S512x512_S512x512_1_0_0_1_n_n none (k0_pay2 v2) (truncf .bf16 v4 bitsLt_bf16_f32)
        (constant S512x512 .f32 0x00000000#32))) bitsLt_bf16_f32)
      (constant S512x512 .f32 0x00000000#32))) bitsLt_bf16_f32 := rfl

/-- Entry by entry they are the specification's attention weights of the two blocks and the weights. -/
theorem mat_pay3 : mat (k0_pay3 v0 v2 v4) = attn (blockMat v0) (blockMat v2) (mat v4) := by
  rw [pay3_eq, mat_truncf, softmaxVec_mat, matmul_transR, mat_truncf, mat_truncf, mat_tanh, mat_tanh, matmul_plain, matmul_plain,
    mat_truncf, mat_pay1, mat_pay2]
  rfl

/-- The first store as the body composes it. -/
theorem pay4_eq : k0_pay4 v0 v2 v4 =
    shapeCast S1x512x512 (matmul dot_S512x512_S512x512_S512x512_1_0_0_1_n_n none (k0_pay3 v0 v2 v4) (k0_pay2 v2)
      (constant S512x512 .f32 0x00000000#32)) shapeCasts_S512x512_S1x512x512 := rfl

/-- The first store, entry by entry: `A · H`. -/
theorem pay4_apply (u : Fin 1) (i j : Fin 512) :
    k0_pay4 v0 v2 v4 (ix3 u i j) = betas (blockMat v0) (blockMat v2) (mat v4) i j := by
  rw [pay4_eq, addUnit_apply, matmul_plain, mat_pay3, mat_pay2]
  rfl

/-- The second store as the body composes it. -/
theorem pay5_eq : k0_pay5 v0 v2 v4 =
    shapeCast S1x512x512 (matmul dot_S512x512_S512x512_S512x512_0_0_1_1_n_n none (k0_pay3 v0 v2 v4) (k0_pay1 v0)
      (constant S512x512 .f32 0x00000000#32)) shapeCasts_S512x512_S1x512x512 := rfl

/-- The second store, entry by entry: `Aᵀ · P`. -/
theorem pay5_apply (u : Fin 1) (i j : Fin 512) :
    k0_pay5 v0 v2 v4 (ix3 u i j) = alphas (blockMat v0) (blockMat v2) (mat v4) i j := by
  rw [pay5_eq, addUnit_apply, matmul_transL, mat_pay3, mat_pay1]
  rfl

/-! ## A block against the whole arrays -/

/-- When the point's two input blocks are batch element `b` of two [64, 512, 512] arrays and its weight block is a
    [512, 512] array, the first store at `y` is the specification's first result at the array index `k` that has batch
    coordinate `b` and `y`'s two trailing coordinates. -/
theorem store3_eq (x0 x1 : Vec Ideal S1x512x512 .f32) (x2 : Vec Ideal S512x512 .f32) (A0 A1 : Arr3) (A2 : Arr2) (b : Fin 64)
    (h0 : blockMat x0 = slab A0 b) (h1 : blockMat x1 = slab A1 b) (h2 : mat x2 = mat A2)
    (y : S1x512x512.Idx) (k : S64x512x512.Idx) (hk0 : (k 0).val = b.val) (hk1 : (k 1).val = (y 1).val) (hk2 : (k 2).val = (y 2).val) :
    k0_pay4 x0 x1 x2 y = betasArr A0 A1 A2 k := by
  obtain ⟨u, i, j, rfl⟩ : ∃ (u : Fin 1) (i j : Fin 512), y = ix3 u i j := ⟨y 0, y 1, y 2, eq_ix3 y⟩
  obtain rfl : k = ix3 b i j := funext fun a => Fin.ext (by
    match a with
    | ⟨0, _⟩ => exact hk0
    | ⟨1, _⟩ => exact hk1
    | ⟨2, _⟩ => exact hk2)
  rw [pay4_apply, betasArr_apply, h0, h1, h2]

/-- The same for the second store and the second result. -/
theorem store4_eq (x0 x1 : Vec Ideal S1x512x512 .f32) (x2 : Vec Ideal S512x512 .f32) (A0 A1 : Arr3) (A2 : Arr2) (b : Fin 64)
    (h0 : blockMat x0 = slab A0 b) (h1 : blockMat x1 = slab A1 b) (h2 : mat x2 = mat A2)
    (y : S1x512x512.Idx) (k : S64x512x512.Idx) (hk0 : (k 0).val = b.val) (hk1 : (k 1).val = (y 1).val) (hk2 : (k 2).val = (y 2).val) :
    k0_pay5 x0 x1 x2 y = alphasArr A0 A1 A2 k := by
  obtain ⟨u, i, j, rfl⟩ : ∃ (u : Fin 1) (i j : Fin 512), y = ix3 u i j := ⟨y 0, y 1, y 2, eq_ix3 y⟩
  obtain rfl : k = ix3 b i j := funext fun a => Fin.ext (by
    match a with
    | ⟨0, _⟩ => exact hk0
    | ⟨1, _⟩ => exact hk1
    | ⟨2, _⟩ => exact hk2)
  rw [pay5_apply, alphasArr_apply, h0, h1, h2]

end Cert.KernelIdeal.Hand

end
-- ==== Proof.KernelArray.lean ====
/-
  From blocks to the whole arrays.

  The grid has one point per batch element. At point `t` the two input windows hold batch element `t` of the premises and
  of the hypotheses (block index `(t, 0, 0)`, blocks of [1, 512, 512]), the weight window holds the whole [512, 512] array
  (block index `(0, 0)`), and each output window writes back block `(t, 0, 0)` of its array. So an element `(u, i, j)` of a
  block sits in its array at `(t, i, j)`, what point `t` writes back is block `t` of the specification's array, and since every
  array index `(b, i, j)` lies in the block of point `b`, each output array ends holding the specification's array.
-/
import proofs.«158958_j29532195127900_1_alg».proof.Proof.Gen.KernelIdeal.Value
import proofs.«158958_j29532195127900_1_alg».proof.Proof.KernelBlock

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Align
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 64 grid points: the batched windows sit at block `(t, 0, 0)`, the weight
    window at block `(0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

theorem lt64 (t : Fin cfg0.N) : t.val < 64 := Nat.lt_of_lt_of_eq t.isLt (show cfg0.N = 64 from N_0)

/-! ## The input blocks as batch elements of the arguments -/

/-- The premise window's block at point `t` is batch element `t` of the first argument. -/
theorem iblk0_mat (c : Dev nD) (t : Fin cfg0.N) :
    blockMat (iblk m c 0 t) = slab (V m c main_arg0) ⟨t.val, lt64 t⟩ := by
  funext i j
  show iblk m c 0 t (ix3 (0 : Fin 1) i j) = V m c main_arg0 (ix3 ⟨t.val, lt64 t⟩ i j)
  unfold iblk
  rw [View.read_apply]
  show V m c main_arg0 _ = V m c main_arg0 _
  refine congrArg (V m c main_arg0) (funext fun a => Fin.ext ?_)
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 512 + 1 * j.val = j.val; omega

/-- The hypothesis window's block at point `t` is batch element `t` of the second argument. -/
theorem iblk1_mat (c : Dev nD) (t : Fin cfg0.N) :
    blockMat (iblk m c 1 t) = slab (V m c main_arg1) ⟨t.val, lt64 t⟩ := by
  funext i j
  show iblk m c 1 t (ix3 (0 : Fin 1) i j) = V m c main_arg1 (ix3 ⟨t.val, lt64 t⟩ i j)
  unfold iblk
  rw [View.read_apply]
  show V m c main_arg1 _ = V m c main_arg1 _
  refine congrArg (V m c main_arg1) (funext fun a => Fin.ext ?_)
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 512 + 1 * j.val = j.val; omega

/-- The weight window's block at every point is the whole third argument. -/
theorem iblk2_mat (c : Dev nD) (t : Fin cfg0.N) :
    mat (iblk m c 2 t) = mat (V m c main_arg2) := by
  funext i j
  show iblk m c 2 t (ix2 i j) = V m c main_arg2 (ix2 i j)
  unfold iblk
  rw [View.read_apply]
  show V m c main_arg2 _ = V m c main_arg2 _
  refine congrArg (V m c main_arg2) (funext fun a => Fin.ext ?_)
  obtain ⟨-, -, ⟨e0, e1⟩, -⟩ := idx_facts t
  match a with
  | ⟨0, _⟩ => show win0_2.index t (0 : Fin 2) * 512 + 1 * i.val = i.val; omega
  | ⟨1, _⟩ => show win0_2.index t (1 : Fin 2) * 512 + 1 * j.val = j.val; omega

/-! ## Output window 3: the first result -/

/-- What point `t` writes back to the first result's array is block `t` of the specification's first array. -/
theorem flushed3_eq (c : Dev nD) (t : Fin cfg0.N) :
    (dats m 0 c).flushed 3 t = ((cfg0.win 3).blk t).view.read (Elt Ideal)
      (betasArr (V m c main_arg0) (V m c main_arg1) (V m c main_arg2)) := by
  rw [Value.flushed3]
  unfold out0_3
  rw [View.canon_unit_zero hz3]
  simp only [View.ld_unit_zero (S := S1x512x512) hz3, View.ld_unit_zero (S := S512x512) hz2]
  obtain ⟨-, -, -, ⟨e0, e1, e2⟩, -⟩ := idx_facts t
  funext y
  show k0_pay4 (iblk m c 0 t) (iblk m c 1 t) (iblk m c 2 t) y
    = betasArr (V m c main_arg0) (V m c main_arg1) (V m c main_arg2) (((cfg0.win 3).blk t).view.emb y)
  have hy : (y 0).val < 1 := (y 0).isLt
  refine store3_eq _ _ _ _ _ _ ⟨t.val, lt64 t⟩ (iblk0_mat m c t) (iblk1_mat m c t) (iblk2_mat m c t) y _ ?_ ?_ ?_
  · show win0_3.index t (0 : Fin 3) * 1 + 1 * (y 0).val = t.val; omega
  · show win0_3.index t (1 : Fin 3) * 512 + 1 * (y 1).val = (y 1).val; omega
  · show win0_3.index t (2 : Fin 3) * 512 + 1 * (y 2).val = (y 2).val; omega

/-- An index of the array is in point `t`'s block iff each coordinate is in the block's range on its axis. -/
theorem mem_blk3 (t : Fin cfg0.N) (i : S64x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0_0).slice (win0_3.rect t)).set ↔ _
  rw [View.set_slice_whole, Rect.mem_set_unit]
  exact Iff.rfl

/-- Every index `(b, i, j)` of the array lies in the block of point `b`. -/
theorem cover3 (i : S64x512x512.Idx) :
    ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 512 := (i 2).isLt
  let t : Fin cfg0.N := ⟨(i 0).val, by rw [show cfg0.N = 64 from N_0]; exact h0⟩
  obtain ⟨-, -, -, ⟨e0, e1, e2⟩, -⟩ := idx_facts t
  have et : t.val = (i 0).val := rfl
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- So the first result's array ends holding the specification's first array of the arguments. -/
theorem final3 (c : Dev nD) :
    (dats m 0 c).arrAt 3 cfg0.N = betasArr (m ((c : Thread nD τ).loc main_arg0)) (m ((c : Thread nD τ).loc main_arg1)) (m ((c : Thread nD τ).loc main_arg2)) :=
  (dats m 0 c).arrAt_eq_of_cover 3 _ (fun t _ => flushed3_eq m c t) cover3

/-! ## Output window 4: the second result -/

/-- What point `t` writes back to the second result's array is block `t` of the specification's second array. -/
theorem flushed4_eq (c : Dev nD) (t : Fin cfg0.N) :
    (dats m 0 c).flushed 4 t = ((cfg0.win 4).blk t).view.read (Elt Ideal)
      (alphasArr (V m c main_arg0) (V m c main_arg1) (V m c main_arg2)) := by
  rw [Value.flushed4]
  unfold out0_4
  rw [View.canon_unit_zero hz3]
  simp only [View.ld_unit_zero (S := S1x512x512) hz3, View.ld_unit_zero (S := S512x512) hz2]
  obtain ⟨-, -, -, -, ⟨e0, e1, e2⟩⟩ := idx_facts t
  funext y
  show k0_pay5 (iblk m c 0 t) (iblk m c 1 t) (iblk m c 2 t) y
    = alphasArr (V m c main_arg0) (V m c main_arg1) (V m c main_arg2) (((cfg0.win 4).blk t).view.emb y)
  have hy : (y 0).val < 1 := (y 0).isLt
  refine store4_eq _ _ _ _ _ _ ⟨t.val, lt64 t⟩ (iblk0_mat m c t) (iblk1_mat m c t) (iblk2_mat m c t) y _ ?_ ?_ ?_
  · show win0_4.index t (0 : Fin 3) * 1 + 1 * (y 0).val = t.val; omega
  · show win0_4.index t (1 : Fin 3) * 512 + 1 * (y 1).val = (y 1).val; omega
  · show win0_4.index t (2 : Fin 3) * 512 + 1 * (y 2).val = (y 2).val; omega

theorem mem_blk4 (t : Fin cfg0.N) (i : S64x512x512.Idx) :
    i ∈ ((cfg0.win 4).blk t).view.set ↔ ∀ a : Fin 3, win0_4.index t a * S1x512x512.size a ≤ (i a).val ∧ (i a).val < win0_4.index t a * S1x512x512.size a + S1x512x512.size a := by
  show i ∈ ((View.whole main_v0_1).slice (win0_4.rect t)).set ↔ _
  rw [View.set_slice_whole, Rect.mem_set_unit]
  exact Iff.rfl

theorem cover4 (i : S64x512x512.Idx) :
    ∃ t : Fin cfg0.N, (cfg0.win 4).flush t = true ∧ i ∈ ((cfg0.win 4).blk t).view.set := by
  have h0 : (i 0).val < 64 := (i 0).isLt
  have h1 : (i 1).val < 512 := (i 1).isLt
  have h2 : (i 2).val < 512 := (i 2).isLt
  let t : Fin cfg0.N := ⟨(i 0).val, by rw [show cfg0.N = 64 from N_0]; exact h0⟩
  obtain ⟨-, -, -, -, ⟨e0, e1, e2⟩⟩ := idx_facts t
  have et : t.val = (i 0).val := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-- So the second result's array ends holding the specification's second array of the arguments. -/
theorem final4 (c : Dev nD) :
    (dats m 0 c).arrAt 4 cfg0.N = alphasArr (m ((c : Thread nD τ).loc main_arg0)) (m ((c : Thread nD τ).loc main_arg1)) (m ((c : Thread nD τ).loc main_arg2)) :=
  (dats m 0 c).arrAt_eq_of_cover 4 _ (fun t _ => flushed4_eq m c t) cover4

/-! ## The run, read -/

/-- Every weakly fair execution of the idealized kernel ends with the two result arrays at the specification's two
    arrays of the arguments, the arguments unchanged. -/
theorem run : θ_run defs (onTc (τ := τ) (main (F := Ideal))) ⟨m, fun _ => 0, ρ⟩ fun r => ∀ c : Dev nD,
      r.2.mem ((c : Thread nD τ).loc main_v0_0) = betasArr (m ((c : Thread nD τ).loc main_arg0)) (m ((c : Thread nD τ).loc main_arg1)) (m ((c : Thread nD τ).loc main_arg2))
      ∧ r.2.mem ((c : Thread nD τ).loc main_v0_1) = alphasArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Hand

end
-- ==== Proof.lean ====
/-
  The claim: the attention-alignment kernel against its jnp reference, over the extended reals.

  Per batch element both programs compute, from the premises `P`, the hypotheses `H` and the projection `W` (three 512×512
  matrices), the projections `tanh(P·W)` and `tanh(H·W)`, their scores `tanh(P·W) · tanh(H·W)ᵀ`, the row softmax `A` of the
  scores, and the two results `A·H` and `Aᵀ·P` (the specification module). The kernel does this one batch element per grid
  point, on [1, 512, 512] blocks with matrix products into zero accumulators and lane reductions; the reference does it on
  whole [64, 512, 512] arrays with batched `dot_general`s and reductions over the last axis. At the ideal values a change of
  float format is the identity, a product into a zero accumulator and a `dot_general` are the same sums, a lane maximum and
  a host maximum the same fold of `max`, a lane sum and a host sum (from zero) the same sum: the two programs apply the same
  operations to the same entries, so no finiteness of the inputs is used.

  The frames of the two kernel programs are their generated frames; the reference's frame is its generated run with the
  results dropped; the idealization rewrote nothing, so `preserves` is trivial; `algebraic` sets the kernel's run (each
  result array at the specification's array of the arguments) beside the reference's run (each result at the operations'
  term, which is the specification's array of the arguments).
-/
import proofs.«158958_j29532195127900_1_alg».proof.Defs
import proofs.«158958_j29532195127900_1_alg».proof.Proof.Gen.Kernel
import proofs.«158958_j29532195127900_1_alg».proof.Proof.Gen.Kernel.Skeleton
import proofs.«158958_j29532195127900_1_alg».proof.Proof.Gen.Kernel.Launch
import proofs.«158958_j29532195127900_1_alg».proof.Proof.Gen.Kernel.Points
import proofs.«158958_j29532195127900_1_alg».proof.Proof.Gen.Kernel.Frame
import proofs.«158958_j29532195127900_1_alg».proof.Proof.Gen.KernelIdeal
import proofs.«158958_j29532195127900_1_alg».proof.Proof.Gen.KernelIdeal.Skeleton
import proofs.«158958_j29532195127900_1_alg».proof.Proof.Gen.KernelIdeal.Launch
import proofs.«158958_j29532195127900_1_alg».proof.Proof.Gen.KernelIdeal.Points
import proofs.«158958_j29532195127900_1_alg».proof.Proof.Gen.KernelIdeal.Frame
import proofs.«158958_j29532195127900_1_alg».proof.Proof.Gen.ReferenceIdeal
import proofs.«158958_j29532195127900_1_alg».proof.Proof.Gen.Pre_finite_inputs
import proofs.«158958_j29532195127900_1_alg».proof.Proof.Gen.KernelIdeal.Value
import proofs.«158958_j29532195127900_1_alg».proof.Proof.Gen.ReferenceIdeal.Run
import proofs.«158958_j29532195127900_1_alg».proof.Proof.Gen.ReferenceIdeal.Read
import proofs.«158958_j29532195127900_1_alg».proof.Proof.RefSide
import proofs.«158958_j29532195127900_1_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- At the ideal values the kernel's two result arrays end at the specification's two arrays of its arguments, and the
    reference's two results at the operations' terms of its arguments, which are the same two arrays of arguments that
    agree. -/
theorem algebraic : Cert.algebraic_KernelIdeal_ReferenceIdeal := by
  intro m ρ m' ρ' _ hagree
  refine ⟨fun c => Cert.Align.betasArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Align.alphasArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v16_eq, Cert.ReferenceIdeal.Hand.v16_eq, (hagree c).1, (hagree c).2.1, (hagree c).2.2]
  · rw [Cert.ReferenceIdeal.Read.val_main_v17_eq, Cert.ReferenceIdeal.Hand.v17_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
